-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x1024 : Shape := ⟨3, ![64, 1024, 1024]⟩
abbrev S64x1024x64 : Shape := ⟨3, ![64, 1024, 64]⟩
abbrev S64x64 : Shape := ⟨2, ![64, 64]⟩
abbrev S_ : Shape := ⟨0, ![]⟩
abbrev S64x1024 : Shape := ⟨2, ![64, 1024]⟩

class Facts : Prop where
  bcast_S_S64x1024x1024 : S_.BroadcastsInDim S64x1024x1024 (![] : Fin 0 → Fin S64x1024x1024.rank)
  reducesTo_S64x1024x1024_S_d0_1_2 : S64x1024x1024.ReducesTo [0, 1, 2] S_
  h_S_ : 0 < S_.numel
  bcast_S_S64x1024x64 : S_.BroadcastsInDim S64x1024x64 (![] : Fin 0 → Fin S64x1024x64.rank)
  reducesTo_S64x1024x64_S_d0_1_2 : S64x1024x64.ReducesTo [0, 1, 2] S_
  bcast_S_S64x64 : S_.BroadcastsInDim S64x64 (![] : Fin 0 → Fin S64x64.rank)
  reducesTo_S64x64_S_d0_1 : S64x64.ReducesTo [0, 1] S_
  reducesTo_S64x1024x1024_S64x1024_d2 : S64x1024x1024.ReducesTo [2] S64x1024
  bcast_S_S64x1024 : S_.BroadcastsInDim S64x1024 (![] : Fin 0 → Fin S64x1024.rank)
  reducesTo_S64x1024_S_d0_1 : S64x1024.ReducesTo [0, 1] S_

variable [Facts]

def fn_part1 {F : FTy → Type} [FloatOps F] (main_v13 : IVec S_ 1) (main_v14 : FVec F S64x1024 .f32) (main_v15 : FVec F S64x1024 .f32) : IVec S_ 1 :=
  let main_v16 : IVec S64x1024 1 := cmpf .ogt main_v14 main_v15
  let main_c_6 : IVec S_ 1 := constantI S_ 1 1#1
  let main_v17 : IVec S_ 1 := (fun x v => Host.reduce IntOp.andi x v reducesTo_S64x1024_S_d0_1 h_S_) main_v16 main_c_6
  let main_v18 : IVec S_ 1 := andi main_v13 main_v17
  main_v18

def fn {F : FTy → Type} [FloatOps F] (main_arg0 : FVec F S64x1024x1024 .f32) (main_arg1 : FVec F S64x1024x64 .f32) (main_arg2 : FVec F S64x64 .f32) : IVec S_ 1 :=
  let main_v0 : FVec F S64x1024x1024 .f32 := Host.absf main_arg0
  let main_cst : FVec F S_ .f32 := constant S_ .f32 0x7F800000#32
  let main_v1 : FVec F S64x1024x1024 .f32 := broadcastInDim S64x1024x1024 ![] bcast_S_S64x1024x1024 main_cst
  let main_v2 : IVec S64x1024x1024 1 := cmpf .olt main_v0 main_v1
  let main_c : IVec S_ 1 := constantI S_ 1 1#1
  let main_v3 : IVec S_ 1 := (fun x v => Host.reduce IntOp.andi x v reducesTo_S64x1024x1024_S_d0_1_2 h_S_) main_v2 main_c
  let main_v4 : FVec F S64x1024x64 .f32 := Host.absf main_arg1
  let main_cst_0 : FVec F S_ .f32 := constant S_ .f32 0x7F800000#32
  let main_v5 : FVec F S64x1024x64 .f32 := broadcastInDim S64x1024x64 ![] bcast_S_S64x1024x64 main_cst_0
  let main_v6 : IVec S64x1024x64 1 := cmpf .olt main_v4 main_v5
  let main_c_1 : IVec S_ 1 := constantI S_ 1 1#1
  let main_v7 : IVec S_ 1 := (fun x v => Host.reduce IntOp.andi x v reducesTo_S64x1024x64_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_cst_4 : FVec F S_ .f32 := constant S_ .f32 0x00000000#32
  let main_v14 : FVec F S64x1024 .f32 := (fun x v => Host.reduceAdd x v reducesTo_S64x1024x1024_S64x1024_d2 h_S_) main_arg0 main_cst_4
  let main_cst_5 : FVec F S_ .f32 := constant S_ .f32 0x00000000#32
  let main_v15 : FVec F S64x1024 .f32 := broadcastInDim S64x1024 ![] bcast_S_S64x1024 main_cst_5
  fn_part1 (F := F) main_v13 main_v14 main_v15
-- ==== Kernel.lean ====
abbrev S64x1024x1024 : Shape := ⟨3, ![64, 1024, 1024]⟩
abbrev S64x1024x64 : Shape := ⟨3, ![64, 1024, 64]⟩
abbrev S64x64 : Shape := ⟨2, ![64, 64]⟩
abbrev S1x1024x1024 : Shape := ⟨3, ![1, 1024, 1024]⟩
abbrev S1x1024x64 : Shape := ⟨3, ![1, 1024, 64]⟩
abbrev S1024x1024 : Shape := ⟨2, ![1024, 1024]⟩
abbrev S1024 : Shape := ⟨1, ![1024]⟩
abbrev S1024x1 : Shape := ⟨2, ![1024, 1]⟩
abbrev S1024x64 : Shape := ⟨2, ![1024, 64]⟩

abbrev nBuf : Space → Nat
  | .hbm => 4
  | .vmem => 7
  | .smem => 0
  | _ => 0

abbrev bufTy : (tb : Table) → Fin (tcTables nBuf tb) → BufTy
  | .hbm, ⟨0, _⟩ => ⟨S64x1024x1024, .f32⟩
  | .hbm, ⟨1, _⟩ => ⟨S64x1024x64, .f32⟩
  | .hbm, ⟨2, _⟩ => ⟨S64x64, .f32⟩
  | .hbm, ⟨3, _⟩ => ⟨S64x1024x64, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x64, .f32⟩
  | .local _ .vmem, ⟨3, _⟩ => ⟨S1x1024x64, .f32⟩
  | .local _ .vmem, ⟨4, _⟩ => ⟨S64x64, .f32⟩
  | .local _ .vmem, ⟨5, _⟩ => ⟨S1x1024x64, .f32⟩
  | .local _ .vmem, ⟨6, _⟩ => ⟨S1x1024x64, .f32⟩
  | _, _ => ⟨S64x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  shapeCasts_S1024_S1024x1 : S1024.ShapeCasts S1024x1
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  broadcasts_S1024x1_S1024x64 : S1024x1.Broadcasts S1024x64
  shapeCasts_S1024x64_S1x1024x64 : S1024x64.ShapeCasts S1x1024x64
  dot_S1024x64_S64x64_S1024x64_1_0_0_1_n_n_wf : DotDims.WF S1024x64 S64x64 S1024x64 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S64x1024x1024.size a
  hwx0_0 : ∀ i : grid0.Coords, EltTy.bits .f32 = 32 ∨ (Rect.block (s := S64x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S64x1024x64.size a
  hwx0_1 : ∀ i : grid0.Coords, EltTy.bits .f32 = 32 ∨ (Rect.block (s := S64x1024x64) S1x1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S64x1024x64.size a
  hwx0_3 : ∀ i : grid0.Coords, EltTy.bits .f32 = 32 ∨ (Rect.block (s := S64x1024x64) S1x1024x64.size (cc0_transform_3 i) (hinb0_3 i)).WholeWords (EltTy.packing .f32)

variable [Facts₀]

def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x1024x1024 : Shape := ⟨3, ![64, 1024, 1024]⟩
abbrev S64x1024x64 : Shape := ⟨3, ![64, 1024, 64]⟩
abbrev S64x64 : Shape := ⟨2, ![64, 64]⟩
abbrev S_ : Shape := ⟨0, ![]⟩
abbrev S64x1024 : Shape := ⟨2, ![64, 1024]⟩
abbrev S1024x1024 : Shape := ⟨2, ![1024, 1024]⟩
abbrev S1x1024x1024 : Shape := ⟨3, ![1, 1024, 1024]⟩
abbrev S64x1024x1 : Shape := ⟨3, ![64, 1024, 1]⟩

abbrev nBuf : Space → Nat
  | .hbm => 24
  | .vmem => 0
  | .smem => 0
  | _ => 0

abbrev bufTy : (tb : Table) → Fin (tcTables nBuf tb) → BufTy
  | .hbm, ⟨0, _⟩ => ⟨S64x1024x1024, .f32⟩
  | .hbm, ⟨1, _⟩ => ⟨S64x1024x64, .f32⟩
  | .hbm, ⟨2, _⟩ => ⟨S64x64, .f32⟩
  | .hbm, ⟨3, _⟩ => ⟨S_, .f32⟩
  | .hbm, ⟨4, _⟩ => ⟨S64x1024, .f32⟩
  | .hbm, ⟨5, _⟩ => ⟨S64x1024, .f32⟩
  | .hbm, ⟨6, _⟩ => ⟨S1024x1024, .i32⟩
  | .hbm, ⟨7, _⟩ => ⟨S1024x1024, .i32⟩
  | .hbm, ⟨8, _⟩ => ⟨S_, .i32⟩
  | .hbm, ⟨9, _⟩ => ⟨S1024x1024, .i32⟩
  | .hbm, ⟨10, _⟩ => ⟨S1024x1024, .i32⟩
  | .hbm, ⟨11, _⟩ => ⟨S1024x1024, .i1⟩
  | .hbm, ⟨12, _⟩ => ⟨S1024x1024, .f32⟩
  | .hbm, ⟨13, _⟩ => ⟨S1x1024x1024, .f32⟩
  | .hbm, ⟨14, _⟩ => ⟨S64x1024x1024, .f32⟩
  | .hbm, ⟨15, _⟩ => ⟨S64x1024x1024, .f32⟩
  | .hbm, ⟨16, _⟩ => ⟨S64x1024x64, .f32⟩
  | .hbm, ⟨17, _⟩ => ⟨S64x1024x1, .f32⟩
  | .hbm, ⟨18, _⟩ => ⟨S64x1024x64, .f32⟩
  | .hbm, ⟨19, _⟩ => ⟨S64x1024x64, .f32⟩
  | .hbm, ⟨20, _⟩ => ⟨S64x1024x64, .f32⟩
  | .hbm, ⟨21, _⟩ => ⟨S64x1024x1, .f32⟩
  | .hbm, ⟨22, _⟩ => ⟨S64x1024x64, .f32⟩
  | .hbm, ⟨23, _⟩ => ⟨S64x1024x64, .f32⟩
  | _, _ => ⟨S64x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  reducesTo_S64x1024x1024_S64x1024_d2 : S64x1024x1024.ReducesTo [2] S64x1024
  h_S_ : 0 < S_.numel
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S64x1024x1024_0_1_2 : S1x1024x1024.BroadcastsInDim S64x1024x1024 (![0, 1, 2] : Fin 3 → Fin S64x1024x1024.rank)
  bcast_S64x1024_S64x1024x1_0_1 : S64x1024.BroadcastsInDim S64x1024x1 (![0, 1] : Fin 2 → Fin S64x1024x1.rank)
  bcast_S64x1024x1_S64x1024x64_0_1_2 : S64x1024x1.BroadcastsInDim S64x1024x64 (![0, 1, 2] : Fin 3 → Fin S64x1024x64.rank)
  dot_S64x1024x64_S64x64_S64x1024x64_2_0_01_1_n_n_wf : DotDims.WF S64x1024x64 S64x64 S64x1024x64 [2] [0] [0, 1] [1] [] []
  dot_S64x1024x1024_S64x1024x64_S64x1024x64_2_1_1_2_0_0_wf : DotDims.WF S64x1024x1024 S64x1024x64 S64x1024x64 [2] [1] [1] [2] [0] [0]

variable [Facts₀]

def dot_S64x1024x64_S64x64_S64x1024x64_2_0_01_1_n_n : DotDims S64x1024x64 S64x64 S64x1024x64 where
  lhsContracting := [2]
  rhsContracting := [0]
  lhsNonContracting := [0, 1]
  rhsNonContracting := [1]
  lhsBatch := []
  rhsBatch := []
  wf := dot_S64x1024x64_S64x64_S64x1024x64_2_0_01_1_n_n_wf
def dot_S64x1024x1024_S64x1024x64_S64x1024x64_2_1_1_2_0_0 : DotDims S64x1024x1024 S64x1024x64 S64x1024x64 where
  lhsContracting := [2]
  rhsContracting := [1]
  lhsNonContracting := [1]
  rhsNonContracting := [2]
  lhsBatch := [0]
  rhsBatch := [0]
  wf := dot_S64x1024x1024_S64x1024x64_S64x1024x64_2_1_1_2_0_0_wf

class Facts : Prop extends Facts₀ where

variable [Facts]
-- ==== Proof.Spec.lean ====
/-
  One graph-convolution layer with symmetric degree normalisation, as ONE function of its three argument arrays on the
  extended reals, and the law that joins the two arrangements in which it is computed.

  For a batch b write A = adj[b] (1024 × 1024), X = att[b] (1024 × 64) and W (64 × 64). Then
    deg n     = Σ_k A[n,k]                       the row sums of the raw adjacency (before self-loops),
    dinv n    = 1/√(deg n),
    proj n e  = Σ_d X[n,d] · W[d,e],
    feat n e  = dinv n · proj n e                the degree-scaled features,
    layer n e = dinv n · ((Σ_j A[n,j] · feat j e) + feat n e).
  The last line adds the self-loop AFTER the product (I · feat = feat). The other arrangement adds the identity matrix to
  A first: dinv n · Σ_j (A[n,j] + δ_nj) · feat j e. Passing from one to the other is distributivity,
  (a + δ) · f = a · f + δ · f, which holds on the extended reals only away from the infinities: with a row sum 0 the
  factor 1/√0 is +∞, feat is infinite, and the two arrangements can differ (−∞ against +∞). So the law is proved for real
  entries and POSITIVE row sums, where every quantity above is a real number and the identity is the one in ℝ.
-/
import Idealize.ShloMosaic.PureOps.Ideal
import Idealize.ShloMosaic.PureOps.Ideal.Laws
import Idealize.ShloMosaic.Lib.ValueIdx

noncomputable section

open scoped BigOperators

namespace Cert.Gcn

open Idealize.ShloMosaic Idealize.ShloMosaic.ValueIdx

/-- Index sets of the three argument arrays; the result has the features' index set. -/
abbrev AdjIdx := (⟨3, ![64, 1024, 1024]⟩ : Shape).Idx
abbrev AttIdx := (⟨3, ![64, 1024, 64]⟩ : Shape).Idx
abbrev WgtIdx := (⟨2, ![64, 64]⟩ : Shape).Idx

variable (A : AdjIdx → EReal) (X : AttIdx → EReal) (W : WgtIdx → EReal)

/-- The degree of node n in batch b: the row sum of the raw adjacency. -/
def deg (b : Fin 64) (n : Fin 1024) : EReal := ∑ k : Fin 1024, A (ix3 b n k)
/-- Its inverse square root, the diagonal entry of D^(-1/2). -/
def dinv (b : Fin 64) (n : Fin 1024) : EReal := Ideal.rsqrt (deg A b n)
/-- The linear projection att · W. -/
def proj (b : Fin 64) (n : Fin 1024) (e : Fin 64) : EReal := ∑ d : Fin 64, X (ix3 b n d) * W (ix2 d e)
/-- The degree-scaled features D^(-1/2) · (att · W). -/
def feat (b : Fin 64) (n : Fin 1024) (e : Fin 64) : EReal := dinv A b n * proj X W b n e
/-- The layer's value at (b, n, e), the self-loop added after the product. -/
def layerAt (b : Fin 64) (n : Fin 1024) (e : Fin 64) : EReal :=
  dinv A b n * ((∑ j : Fin 1024, A (ix3 b n j) * feat A X W b j e) + feat A X W b n e)
/-- The layer as one array. -/
def layer : AttIdx → EReal := fun i => layerAt A X W (i 0) (i 1) (i 2)
/-- The other arrangement: a matrix (eye) added to the adjacency before the product. -/
def selfLoopAt (eye : Fin 1024 → Fin 1024 → EReal) (b : Fin 64) (n : Fin 1024) (e : Fin 64) : EReal :=
  dinv A b n * ∑ j : Fin 1024, (A (ix3 b n j) + eye n j) * feat A X W b j e

theorem layer_ix3 (b : Fin 64) (n : Fin 1024) (e : Fin 64) : layer A X W (ix3 b n e) = layerAt A X W b n e := rfl

/-! ## Sums of real numbers inside the extended reals -/

/-- The coercion from the reals commutes with finite sums. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of real numbers is a real number. -/
theorem sum_real {ι : Type*} (s : Finset ι) (f : ι → EReal) (h : ∀ k, ∃ r : ℝ, f k = r) : ∃ r : ℝ, ∑ k ∈ s, f k = r := by
  choose g hg using h
  exact ⟨∑ k ∈ s, g k, by rw [coe_sum]; exact Finset.sum_congr rfl fun k _ => hg k⟩

/-- A product of two real numbers is a real number. -/
theorem mul_real {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

/-- Distributivity over a Kronecker delta, for real entries: Σ_j (a_j + δ_ij) · x_j = (Σ_j a_j · x_j) + x_i. -/
theorem sum_add_delta {n : ℕ} (a x : Fin n → ℝ) (i : Fin n) :
    ∑ j : Fin n, ((a j : EReal) + (if i = j then (1 : EReal) else 0)) * (x j : EReal)
      = (∑ j : Fin n, (a j : EReal) * (x j : EReal)) + (x i : EReal) := by
  have h1 : ∀ j : Fin n, ((a j : EReal) + (if i = j then (1 : EReal) else 0)) * (x j : EReal)
      = ((a j * x j + (if i = j then x j else 0) : ℝ) : EReal) := by
    intro j
    by_cases h : i = j
    · rw [if_pos h, if_pos h, ← EReal.coe_one, ← EReal.coe_add, ← EReal.coe_mul]; congr 1; ring
    · rw [if_neg h, if_neg h, add_zero, add_zero, ← EReal.coe_mul]
  have h2 : ∀ j : Fin n, (a j : EReal) * (x j : EReal) = ((a j * x j : ℝ) : EReal) := fun j => (EReal.coe_mul _ _).symm
  rw [Finset.sum_congr rfl fun j _ => h1 j, Finset.sum_congr rfl fun j _ => h2 j, ← coe_sum, ← coe_sum, ← EReal.coe_add]
  congr 1
  rw [Finset.sum_add_distrib, Finset.sum_ite_eq, if_pos (Finset.mem_univ i)]

/-! ## Under real entries and positive row sums every quantity is real -/

section Real

variable {A X W}
variable (hA : ∀ i, ∃ r : ℝ, A i = r) (hX : ∀ i, ∃ r : ℝ, X i = r) (hW : ∀ i, ∃ r : ℝ, W i = r)
variable (hpos : ∀ b n, 0 < deg A b n)

include hA in
theorem deg_real (b : Fin 64) (n : Fin 1024) : ∃ r : ℝ, deg A b n = r := sum_real _ _ fun _ => hA _

include hA hpos in
/-- The inverse square root of a positive real row sum is the real number (√deg)⁻¹. -/
theorem dinv_real (b : Fin 64) (n : Fin 1024) : ∃ r : ℝ, dinv A b n = r := by
  obtain ⟨r, hr⟩ := deg_real hA b n
  have h0 : 0 < r := by have := hpos b n; rw [hr] at this; exact_mod_cast this
  refine ⟨(Real.sqrt r)⁻¹, ?_⟩
  unfold dinv
  rw [hr, Ideal.rsqrt_coe, if_neg (not_lt.mpr h0.le), if_neg h0.ne']

include hX hW in
theorem proj_real (b : Fin 64) (n : Fin 1024) (e : Fin 64) : ∃ r : ℝ, proj X W b n e = r :=
  sum_real _ _ fun _ => mul_real (hX _) (hW _)

include hA hX hW hpos in
theorem feat_real (b : Fin 64) (n : Fin 1024) (e : Fin 64) : ∃ r : ℝ, feat A X W b n e = r :=
  mul_real (dinv_real hA hpos b n) (proj_real hX hW b n e)

include hA hX hW hpos in
/-- THE LAW: adding the identity matrix to the adjacency before the product is adding the features after it. -/
theorem selfLoopAt_eq_layerAt (eye : Fin 1024 → Fin 1024 → EReal) (heye : ∀ n j, eye n j = if n = j then 1 else 0)
    (b : Fin 64) (n : Fin 1024) (e : Fin 64) : selfLoopAt A X W eye b n e = layerAt A X W b n e := by
  unfold selfLoopAt layerAt
  refine congrArg (dinv A b n * ·) ?_
  choose a ha using fun j : Fin 1024 => hA (ix3 b n j)
  choose f hf using fun j : Fin 1024 => feat_real hA hX hW hpos b j e
  rw [Finset.sum_congr rfl fun j _ => show (A (ix3 b n j) + eye n j) * feat A X W b j e
        = ((a j : EReal) + (if n = j then (1 : EReal) else 0)) * (f j : EReal) by rw [ha j, hf j, heye n j],
    Finset.sum_congr rfl fun j _ => show A (ix3 b n j) * feat A X W b j e = (a j : EReal) * (f j : EReal) by rw [ha j, hf j],
    hf n]
  exact sum_add_delta a f n

end Real

end Cert.Gcn

end
-- ==== Proof.Layout.lean ====
/-
  The body's layout operations and its row sum, read at an index given by literal coordinates.

  A pipelined block carries a leading axis of extent one: the (1, h, w) block viewed as an (h, w) matrix reads (0, r, k) at
  (r, k), and an (h, w) result stored as a (1, h, w) block reads (r, k) at (0, r, k). A row sum with keepdims is a vector of
  length h recast as an (h, 1) column, and the column broadcast along the rows reads its entry (r, 0) at every (r, e). The
  sum over the second axis of an (h, w) matrix, at row r, is the sum over k of the entries (r, k).
-/
import Idealize.ShloMosaic.Lib.Pipeline.Value
import Idealize.ShloMosaic.Lib.ValueIdx
import Idealize.ShloMosaic.PureOps.Ideal.Laws

noncomputable section

open scoped BigOperators

namespace Cert.Gcn.Layout

open Idealize.ShloMosaic Idealize.ShloMosaic.ValueIdx

variable {α : Type}

/-- The (1, h, w) block viewed as an (h, w) matrix: entry (r, k) is the block's (0, r, k). -/
theorem dropLead {h w : ℕ} (v : (⟨3, ![1, h, w]⟩ : Shape).Idx → α)
    (hc : (⟨3, ![1, h, w]⟩ : Shape).ShapeCasts ⟨2, ![h, w]⟩) (r : Fin h) (k : Fin w) :
    shapeCast ⟨2, ![h, w]⟩ v hc (ix2 r k) = v (ix3 0 r k) := by
  refine shapeCast_apply v hc (ix2 r k) (ix3 0 r k) ?_
  rw [Shape.rowMajor_val_three, Shape.rowMajor_val_two]
  show ((0 : ℕ) * h + r.val) * w + k.val = r.val * w + k.val
  rw [Nat.zero_mul, Nat.zero_add]

/-- An (h, w) matrix stored as a (1, h, w) block: the block's (0, r, k) is the matrix's (r, k). -/
theorem addLead {h w : ℕ} (v : (⟨2, ![h, w]⟩ : Shape).Idx → α)
    (hc : (⟨2, ![h, w]⟩ : Shape).ShapeCasts ⟨3, ![1, h, w]⟩) (r : Fin h) (k : Fin w) :
    shapeCast ⟨3, ![1, h, w]⟩ v hc (ix3 0 r k) = v (ix2 r k) := by
  refine shapeCast_apply v hc (ix3 0 r k) (ix2 r k) ?_
  rw [Shape.rowMajor_val_three, Shape.rowMajor_val_two]
  show r.val * w + k.val = ((0 : ℕ) * h + r.val) * w + k.val
  rw [Nat.zero_mul, Nat.zero_add]

/-- A vector of length h recast as an (h, 1) column: the column's (r, 0) is the vector's r. -/
theorem toColumn {h : ℕ} (v : (⟨1, ![h]⟩ : Shape).Idx → α)
    (hc : (⟨1, ![h]⟩ : Shape).ShapeCasts ⟨2, ![h, 1]⟩) (r : Fin h) :
    shapeCast ⟨2, ![h, 1]⟩ v hc (ix2 r 0) = v (ix1 r) := by
  refine shapeCast_apply v hc (ix2 r 0) (ix1 r) ?_
  rw [Shape.rowMajor_val_one, Shape.rowMajor_val_two]
  show r.val = r.val * 1 + 0
  omega

/-- The (1024, 1) column broadcast along the rows of a (1024, 64) matrix: entry (r, e) is the column's (r, 0). -/
theorem colBroadcast (v : (⟨2, ![1024, 1]⟩ : Shape).Idx → α)
    (hb : (⟨2, ![1024, 1]⟩ : Shape).Broadcasts ⟨2, ![1024, 64]⟩) (r : Fin 1024) (e : Fin 64) :
    broadcastTo ⟨2, ![1024, 64]⟩ v hb (ix2 r e) = v (ix2 r 0) := by
  refine broadcastTo_apply v hb (ix2 r e) (ix2 r 0) fun a => ?_
  match a with
  | ⟨0, _⟩ => show r.val = if (1024 : ℕ) = 1 then 0 else r.val; rw [if_neg (by decide)]
  | ⟨1, _⟩ => show (0 : ℕ) = if (1 : ℕ) = 1 then 0 else e.val; rw [if_pos rfl]

/-- The inverse square root of a vector, entry by entry. -/
theorem rsqrt_apply {s : Shape} {φ : FTy} (a : FVec Ideal s φ) (i : s.Idx) : rsqrt a i = Ideal.rsqrt (a i) := rfl

/-- The sum over the second axis of a (1024, 1024) matrix of extended reals: at row r, the sum over k of the entries
    (r, k). (A sum reduction from its neutral accumulator is, by definition, the exact sum of the entries that reduce to
    each index.) -/
theorem rowSum (v : FVec Ideal ⟨2, ![1024, 1024]⟩ .f32)
    (h : (⟨2, ![1024, 1024]⟩ : Shape).Reduces [1] ⟨1, ![1024]⟩) (r : Fin 1024) :
    FloatOps.reduceAdd (F := Ideal) [1] h v (ix1 r) = ∑ k : Fin 1024, v (ix2 r k) := by
  refine (Ideal.reduceAdd_single h v (ix1 r)).trans ?_
  show (∑ k : Fin 1024, v (h.lift (ix1 r) k)) = _
  exact Finset.sum_congr rfl fun k _ => congrArg v (funext fun a => Fin.ext (by
    match a with
    | ⟨0, _⟩ => rfl
    | ⟨1, _⟩ => rfl))

end Cert.Gcn.Layout

end
-- ==== Proof.KernelBody.lean ====
/-
  The kernel body's arithmetic read at one entry of its output block.

  At a grid point the body holds one batch: the (1024 × 1024) adjacency block, the (1024 × 64) feature block and the whole
  (64 × 64) weight. Its two matrix products accumulate from zero, so at an entry each is the plain sum over the contracted
  index of the products of the operands' entries; the narrowing of the operands to bf16 is the identity on extended reals.
  With these, entry (n, e) of what the body stores is
    dinv n · ((Σ_j A[n,j] · (dinv j · Σ_d X[j,d]·W[d,e])) + dinv n · Σ_d X[n,d]·W[d,e]),   dinv n = 1/√(Σ_k A[n,k]),
  which is the layer's value at (b, n, e) once the blocks' entries are identified with batch b of the arrays.
-/
import proofs.«117016_j71098888618113_2_alg».proof.Proof.Gen.KernelIdeal.Skeleton
import proofs.«117016_j71098888618113_2_alg».proof.Proof.Spec
import proofs.«117016_j71098888618113_2_alg».proof.Proof.Layout
import Idealize.ShloMosaic.PureOps.Ideal.Laws
import Idealize.ShloMosaic.Lib.ValueIdx

noncomputable section

open scoped BigOperators

namespace Cert.KernelIdeal.Body

open Cert.KernelIdeal Cert.KernelIdeal.Gen Idealize.ShloMosaic Idealize.ShloMosaic.ValueIdx

/-- The projection att · W accumulated from zero: entry (n, e) is the sum over d of att[n,d] · W[d,e]. -/
theorem projMatmul_apply (l : FVec Ideal S1024x64 .bf16) (r : FVec Ideal S64x64 .bf16) (n : Fin 1024) (e : Fin 64) :
    matmul dot_S1024x64_S64x64_S1024x64_1_0_0_1_n_n none l r (constant S1024x64 .f32 0x00000000#32) (ix2 n e)
      = ∑ k : Fin 64, l (ix2 n k) * r (ix2 k e) := by
  simp only [matmul]
  rw [Ideal.matmul_constant_zero_apply, ← Equiv.sum_comp (ValueIdx.contrEquiv1 dot_S1024x64_S64x64_S1024x64_1_0_0_1_n_n 64 rfl rfl).symm]
  refine Finset.sum_congr rfl fun k _ => ?_
  have hk := ValueIdx.contrEquiv1_symm_val dot_S1024x64_S64x64_S1024x64_1_0_0_1_n_n 64 rfl rfl k
  have el : dot_S1024x64_S64x64_S1024x64_1_0_0_1_n_n.lhsIdx (ix2 n e) ((ValueIdx.contrEquiv1 dot_S1024x64_S64x64_S1024x64_1_0_0_1_n_n 64 rfl rfl).symm k) = ix2 n k := funext fun a => Fin.ext (by
    match a with
    | ⟨0, _⟩ =>
      show (dot_S1024x64_S64x64_S1024x64_1_0_0_1_n_n.lhsIdx (ix2 n e) _ 0).val = n.val
      unfold DotDims.lhsIdx
      rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
      rfl
    | ⟨1, _⟩ => exact (dot_S1024x64_S64x64_S1024x64_1_0_0_1_n_n.lhsIdx_val_of_single rfl _ _).trans hk)
  have er : dot_S1024x64_S64x64_S1024x64_1_0_0_1_n_n.rhsIdx (ix2 n e) ((ValueIdx.contrEquiv1 dot_S1024x64_S64x64_S1024x64_1_0_0_1_n_n 64 rfl rfl).symm k) = ix2 k e := funext fun a => Fin.ext (by
    match a with
    | ⟨0, _⟩ => exact (dot_S1024x64_S64x64_S1024x64_1_0_0_1_n_n.rhsIdx_val_of_single rfl _ _).trans hk
    | ⟨1, _⟩ =>
      show (dot_S1024x64_S64x64_S1024x64_1_0_0_1_n_n.rhsIdx (ix2 n e) _ 1).val = e.val
      unfold DotDims.rhsIdx
      rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
      rfl)
  rw [el, er]

/-- The aggregation adj · feat accumulated from zero: entry (n, e) is the sum over j of adj[n,j] · feat[j,e]. -/
theorem aggMatmul_apply (l : FVec Ideal S1024x1024 .bf16) (r : FVec Ideal S1024x64 .bf16) (n : Fin 1024) (e : Fin 64) :
    matmul dot_S1024x1024_S1024x64_S1024x64_1_0_0_1_n_n none l r (constant S1024x64 .f32 0x00000000#32) (ix2 n e)
      = ∑ k : Fin 1024, l (ix2 n k) * r (ix2 k e) := by
  simp only [matmul]
  rw [Ideal.matmul_constant_zero_apply, ← Equiv.sum_comp (ValueIdx.contrEquiv1 dot_S1024x1024_S1024x64_S1024x64_1_0_0_1_n_n 1024 rfl rfl).symm]
  refine Finset.sum_congr rfl fun k _ => ?_
  have hk := ValueIdx.contrEquiv1_symm_val dot_S1024x1024_S1024x64_S1024x64_1_0_0_1_n_n 1024 rfl rfl k
  have el : dot_S1024x1024_S1024x64_S1024x64_1_0_0_1_n_n.lhsIdx (ix2 n e) ((ValueIdx.contrEquiv1 dot_S1024x1024_S1024x64_S1024x64_1_0_0_1_n_n 1024 rfl rfl).symm k) = ix2 n k := funext fun a => Fin.ext (by
    match a with
    | ⟨0, _⟩ =>
      show (dot_S1024x1024_S1024x64_S1024x64_1_0_0_1_n_n.lhsIdx (ix2 n e) _ 0).val = n.val
      unfold DotDims.lhsIdx
      rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
      rfl
    | ⟨1, _⟩ => exact (dot_S1024x1024_S1024x64_S1024x64_1_0_0_1_n_n.lhsIdx_val_of_single rfl _ _).trans hk)
  have er : dot_S1024x1024_S1024x64_S1024x64_1_0_0_1_n_n.rhsIdx (ix2 n e) ((ValueIdx.contrEquiv1 dot_S1024x1024_S1024x64_S1024x64_1_0_0_1_n_n 1024 rfl rfl).symm k) = ix2 k e := funext fun a => Fin.ext (by
    match a with
    | ⟨0, _⟩ => exact (dot_S1024x1024_S1024x64_S1024x64_1_0_0_1_n_n.rhsIdx_val_of_single rfl _ _).trans hk
    | ⟨1, _⟩ =>
      show (dot_S1024x1024_S1024x64_S1024x64_1_0_0_1_n_n.rhsIdx (ix2 n e) _ 1).val = e.val
      unfold DotDims.rhsIdx
      rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
      rfl)
  rw [el, er]

/-- ENTRY (n, e) OF WHAT THE BODY STORES, for blocks whose entries are batch b of three arrays A, X, W, is the layer's value
    at (b, n, e). -/
theorem pay_apply (A : Cert.Gcn.AdjIdx → EReal) (X : Cert.Gcn.AttIdx → EReal) (W : Cert.Gcn.WgtIdx → EReal) (b : Fin 64)
    (x0 : FVec Ideal S1x1024x1024 .f32) (x1 : FVec Ideal S1x1024x64 .f32) (x2 : FVec Ideal S64x64 .f32)
    (h0 : ∀ (r : Fin 1024) (k : Fin 1024), x0 (ix3 0 r k) = A (ix3 b r k))
    (h1 : ∀ (r : Fin 1024) (d : Fin 64), x1 (ix3 0 r d) = X (ix3 b r d))
    (h2 : ∀ (d : Fin 64) (e : Fin 64), x2 (ix2 d e) = W (ix2 d e))
    (n : Fin 1024) (e : Fin 64) :
    k0_pay1 (F := Ideal) x0 x1 x2 (ix3 0 n e) = Cert.Gcn.layerAt A X W b n e := by
  unfold k0_pay1
  -- a sum reduction from its neutral accumulator is by definition the exact sum: open it to that
  delta multiReduction
  dsimp only
  simp only [Cert.Gcn.Layout.addLead, Cert.Gcn.Layout.dropLead, Cert.Gcn.Layout.toColumn, Cert.Gcn.Layout.colBroadcast,
    Cert.Gcn.Layout.rsqrt_apply, Cert.Gcn.Layout.rowSum _ reduces_S1024x1024_S1024, mulf_apply, addf_apply, truncf_apply,
    projMatmul_apply, aggMatmul_apply, h0, h1, h2]
  rfl

end Cert.KernelIdeal.Body

end
-- ==== Proof.KernelArray.lean ====
/-
  From what each grid point writes back to the whole result array.

  The grid has one point per batch. At point t the adjacency window holds batch t of the adjacency, the feature window batch
  t of the features, the weight window the whole weight, and the output window is written back to batch t of the result:
  every window's block index is (t, 0, 0) (the weight's (0, 0)), and an element of a block sits at block index × block size
  + its coordinate inside the block. So what point t writes back is batch t of the layer read through the output block,
  every index (b, n, e) of the result lies in point b's block, and the result array ends holding the layer.
-/
import proofs.«117016_j71098888618113_2_alg».proof.Proof.Gen.KernelIdeal.Value
import proofs.«117016_j71098888618113_2_alg».proof.Proof.KernelBody
import Idealize.ShloMosaic.Lib.Pipeline.Value

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Idealize.ShloMosaic.ValueIdx

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The batch a grid point works on. -/
def batch (t : Fin cfg0.N) : Fin 64 := ⟨t.val, by have h := t.isLt; have hN : cfg0.N = 64 := N_0; omega⟩

/-- The grid point that works on a batch. -/
def point (b : Fin 64) : Fin cfg0.N := ⟨b.val, by have h := b.isLt; have hN : cfg0.N = 64 := N_0; omega⟩

/-- The windows' block indices, decided over the 64 grid points: the batch on the leading axis, zero elsewhere. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The adjacency window's block at point t is batch t of the adjacency. -/
theorem adjBlock_apply (c : Dev nD) (t : Fin cfg0.N) (r k : Fin 1024) :
    (iblk m c 0 t : Vec Ideal S1x1024x1024 .f32) (ix3 0 r k) = (V m c main_arg0 : S64x1024x1024.Idx → EReal) (ix3 (batch t) r k) := by
  obtain ⟨a0, a1, a2, -⟩ := idx_facts t
  unfold iblk
  rw [View.read_apply]
  refine congrArg (V m c main_arg0) (funext fun a => Fin.ext ?_)
  match a with
  | ⟨0, _⟩ => show win0_0.index t (0 : Fin 3) * 1 + 1 * (0 : ℕ) = t.val; rw [a0]; omega
  | ⟨1, _⟩ => show win0_0.index t (1 : Fin 3) * 1024 + 1 * r.val = r.val; rw [a1]; omega
  | ⟨2, _⟩ => show win0_0.index t (2 : Fin 3) * 1024 + 1 * k.val = k.val; rw [a2]; omega

/-- The feature window's block at point t is batch t of the features. -/
theorem attBlock_apply (c : Dev nD) (t : Fin cfg0.N) (r : Fin 1024) (d : Fin 64) :
    (iblk m c 1 t : Vec Ideal S1x1024x64 .f32) (ix3 0 r d) = (V m c main_arg1 : S64x1024x64.Idx → EReal) (ix3 (batch t) r d) := by
  obtain ⟨-, -, -, b0, b1, b2, -⟩ := idx_facts t
  unfold iblk
  rw [View.read_apply]
  refine congrArg (V m c main_arg1) (funext fun a => Fin.ext ?_)
  match a with
  | ⟨0, _⟩ => show win0_1.index t (0 : Fin 3) * 1 + 1 * (0 : ℕ) = t.val; rw [b0]; omega
  | ⟨1, _⟩ => show win0_1.index t (1 : Fin 3) * 1024 + 1 * r.val = r.val; rw [b1]; omega
  | ⟨2, _⟩ => show win0_1.index t (2 : Fin 3) * 64 + 1 * d.val = d.val; rw [b2]; omega

/-- The weight window's block at every point is the whole weight. -/
theorem wgtBlock_apply (c : Dev nD) (t : Fin cfg0.N) (d e : Fin 64) :
    (iblk m c 2 t : Vec Ideal S64x64 .f32) (ix2 d e) = (V m c main_arg2 : S64x64.Idx → EReal) (ix2 d e) := by
  obtain ⟨-, -, -, -, -, -, w0, w1, -⟩ := idx_facts t
  unfold iblk
  rw [View.read_apply]
  refine congrArg (V m c main_arg2) (funext fun a => Fin.ext ?_)
  match a with
  | ⟨0, _⟩ => show win0_2.index t (0 : Fin 2) * 64 + 1 * d.val = d.val; rw [w0]; omega
  | ⟨1, _⟩ => show win0_2.index t (1 : Fin 2) * 64 + 1 * e.val = e.val; rw [w1]; omega

/-- An element (0, r, e) of the output block at point t sits at (t, r, e) of the result. -/
theorem outBlock_emb (t : Fin cfg0.N) (r : Fin 1024) (e : Fin 64) :
    ((cfg0.win 3).blk t).view.emb (ix3 0 r e) = (ix3 (batch t) r e : S64x1024x64.Idx) := by
  obtain ⟨-, -, -, -, -, -, -, -, o0, o1, o2⟩ := idx_facts t
  refine funext fun a => Fin.ext ?_
  match a with
  | ⟨0, _⟩ => show win0_3.index t (0 : Fin 3) * 1 + 1 * (0 : ℕ) = t.val; rw [o0]; omega
  | ⟨1, _⟩ => show win0_3.index t (1 : Fin 3) * 1024 + 1 * r.val = r.val; rw [o1]; omega
  | ⟨2, _⟩ => show win0_3.index t (2 : Fin 3) * 64 + 1 * e.val = e.val; rw [o2]; omega

/-- The layer of the argument arrays as the region finds them. -/
abbrev result (c : Dev nD) : S64x1024x64.Idx → EReal :=
  Cert.Gcn.layer (V m c main_arg0) (V m c main_arg1) (V m c main_arg2)

/-- WHAT POINT t WRITES BACK is batch t of the layer, read through the output block. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero zero3]
  simp only [View.ld_unit_zero (S := S1x1024x1024) zero3, View.ld_unit_zero (S := S1x1024x64) zero3,
    View.ld_unit_zero (S := S64x64) zero2]
  funext y
  obtain ⟨r, e, rfl⟩ : ∃ (r : Fin 1024) (e : Fin 64), y = ix3 0 r e :=
    ⟨y 1, y 2, funext fun a => by
      match a with
      | ⟨0, _⟩ => exact Fin.ext (by have h : (y 0).val < 1 := (y 0).isLt; show (y 0).val = 0; omega)
      | ⟨1, _⟩ => rfl
      | ⟨2, _⟩ => rfl⟩
  show k0_pay1 (F := Ideal) (iblk m c 0 t) (iblk m c 1 t) (iblk m c 2 t) (ix3 0 r e)
    = result m c (((cfg0.win 3).blk t).view.emb (ix3 0 r e))
  rw [outBlock_emb t r e]
  exact Cert.KernelIdeal.Body.pay_apply (V m c main_arg0) (V m c main_arg1) (V m c main_arg2) (batch t)
    (iblk m c 0 t) (iblk m c 1 t) (iblk m c 2 t) (adjBlock_apply m c t) (attBlock_apply m c t) (wgtBlock_apply m c t) r e

/-- An index of the result is in point t's block iff each coordinate is in the block's range on its axis. -/
theorem mem_outBlock (t : Fin cfg0.N) (i : S64x1024x64.Idx) :
    i ∈ ((cfg0.win 3).blk t).view.set ↔ ∀ a : Fin 3, win0_3.index t a * S1x1024x64.size a ≤ (i a).val
      ∧ (i a).val < win0_3.index t a * S1x1024x64.size a + S1x1024x64.size a := by
  show i ∈ ((View.whole main_v0).slice (win0_3.rect t)).set ↔ _
  rw [View.set_slice_whole, Rect.mem_set_unit]
  exact Iff.rfl

/-- Every index (b, n, e) of the result lies in the block of the point that works on batch b. -/
theorem covered (i : S64x1024x64.Idx) :
    ∃ t : Fin cfg0.N, (cfg0.win 3).flush t = true ∧ i ∈ ((cfg0.win 3).blk t).view.set := by
  have h0 : (i 0).val < 64 := (i 0).isLt
  have h1 : (i 1).val < 1024 := (i 1).isLt
  have h2 : (i 2).val < 64 := (i 2).isLt
  refine ⟨point ⟨(i 0).val, h0⟩, flush0_3 _, ?_⟩
  obtain ⟨-, -, -, -, -, -, -, -, o0, o1, o2⟩ := idx_facts (point ⟨(i 0).val, h0⟩)
  rw [mem_outBlock]
  intro a
  match a with
  | ⟨0, _⟩ =>
    show win0_3.index (point ⟨(i 0).val, h0⟩) (0 : Fin 3) * 1 ≤ (i 0).val
      ∧ (i 0).val < win0_3.index (point ⟨(i 0).val, h0⟩) (0 : Fin 3) * 1 + 1
    rw [o0]; show (i 0).val * 1 ≤ (i 0).val ∧ (i 0).val < (i 0).val * 1 + 1; omega
  | ⟨1, _⟩ =>
    show win0_3.index (point ⟨(i 0).val, h0⟩) (1 : Fin 3) * 1024 ≤ (i 1).val
      ∧ (i 1).val < win0_3.index (point ⟨(i 0).val, h0⟩) (1 : Fin 3) * 1024 + 1024
    rw [o1]; omega
  | ⟨2, _⟩ =>
    show win0_3.index (point ⟨(i 0).val, h0⟩) (2 : Fin 3) * 64 ≤ (i 2).val
      ∧ (i 2).val < win0_3.index (point ⟨(i 0).val, h0⟩) (2 : Fin 3) * 64 + 64
    rw [o2]; omega

/-- THE RESULT ARRAY after the run is the layer of the argument arrays. -/
theorem final (c : Dev nD) : (dats m 0 c).arrAt 3 cfg0.N = result m c :=
  (dats m 0 c).arrAt_eq_of_cover 3 (result m c) (fun t _ => flushed_eq m c t) covered

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefValue.lean ====
/-
  The reference's result read at one entry, as the layer with the identity matrix added to the adjacency BEFORE the
  aggregation.

  The reference sums each adjacency row (from a zero initial value), takes the inverse square root, builds the identity
  matrix by comparing a row counter with a column counter (entry 1 where they agree, 0 elsewhere), adds it to every batch
  of the adjacency, projects the features by the weight, scales the rows, aggregates with the self-looped adjacency in one
  batched product, and scales the rows again. Read at entry (b, n, e):
    dinv b n · Σ_j (A[b,n,j] + δ_nj) · (dinv b j · Σ_d X[b,j,d] · W[d,e]).
  The two counters are 32-bit words of numbers below 1024, so they agree as words exactly when the numbers agree.
-/
import proofs.«117016_j71098888618113_2_alg».proof.Proof.Gen.ReferenceIdeal.Read
import proofs.«117016_j71098888618113_2_alg».proof.Proof.Spec
import Idealize.ShloMosaic.Lib.Affine
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-- The identity matrix as the reference builds it: the row counter compared with the column counter, as a float. -/
def eye (n j : Fin 1024) : EReal := val_main_v7 (F := Ideal) (ix2 n j)

/-- It is 1 on the diagonal and 0 off it. -/
theorem eye_eq (n j : Fin 1024) : eye n j = if n = j then 1 else 0 := by
  unfold eye
  rw [val_main_v7_apply, val_main_v6_apply, val_main_v5_apply, val_main_v2_apply, val_main_v4_apply, val_main_c_apply,
    val_main_v3_apply]
  show (((IntOp.cmpi .eq (IntOp.addi (BitVec.ofNat 32 n.val) 0#32) (BitVec.ofNat 32 j.val)).toNat : ℝ) : EReal) = _
  have hw : IntOp.addi (BitVec.ofNat 32 n.val) 0#32 = BitVec.ofNat 32 n.val := by
    unfold IntOp.addi; exact BitVec.add_zero _
  rw [hw]
  by_cases h : n = j
  · subst h
    rw [if_pos rfl, IntOp.cmpi_eq.mpr rfl]
    norm_num
  · have hne : ¬IntOp.cmpi .eq (BitVec.ofNat 32 n.val) (BitVec.ofNat 32 j.val) = 1#1 := fun hc => h (Fin.ext (by
      have := congrArg BitVec.toNat (IntOp.cmpi_eq.mp hc)
      simp only [BitVec.toNat_ofNat] at this
      have hn := n.isLt; have hj := j.isLt
      omega))
    rw [if_neg h, eq_zero_of_ne_one hne]
    norm_num

/-! The index maps of the reference's operations, at an index given by coordinates. -/

theorem idx17 (b : Fin 64) (n : Fin 1024) (e : Fin 64) : idx_main_v17 (ix3 b n e) = ix3 b n (0 : Fin 1) :=
  funext fun a => Fin.ext (by match a with | ⟨0, _⟩ => rfl | ⟨1, _⟩ => rfl | ⟨2, _⟩ => rfl)
theorem idx13 (b : Fin 64) (n : Fin 1024) (e : Fin 64) : idx_main_v13 (ix3 b n e) = ix3 b n (0 : Fin 1) :=
  funext fun a => Fin.ext (by match a with | ⟨0, _⟩ => rfl | ⟨1, _⟩ => rfl | ⟨2, _⟩ => rfl)
theorem idx16 (b : Fin 64) (n : Fin 1024) : idx_main_v16 (ix3 b n (0 : Fin 1)) = ix2 b n :=
  funext fun a => Fin.ext (by match a with | ⟨0, _⟩ => rfl | ⟨1, _⟩ => rfl)
theorem idx12 (b : Fin 64) (n : Fin 1024) : idx_main_v12 (ix3 b n (0 : Fin 1)) = ix2 b n :=
  funext fun a => Fin.ext (by match a with | ⟨0, _⟩ => rfl | ⟨1, _⟩ => rfl)
theorem idx0 (b : Fin 64) (n : Fin 1024) (k : Fin 1024) : idx_main_v0 (ix2 b n) k = ix3 b n k :=
  funext fun a => Fin.ext (by match a with | ⟨0, _⟩ => rfl | ⟨1, _⟩ => rfl | ⟨2, _⟩ => rfl)
theorem lidx15 (b : Fin 64) (n : Fin 1024) (e : Fin 64) (k : Fin 1024) : lidx_main_v15 (ix3 b n e) k = ix3 b n k :=
  funext fun a => Fin.ext (by match a with | ⟨0, _⟩ => rfl | ⟨1, _⟩ => rfl | ⟨2, _⟩ => rfl)
theorem ridx15 (b : Fin 64) (n : Fin 1024) (e : Fin 64) (k : Fin 1024) : ridx_main_v15 (ix3 b n e) k = ix3 b k e :=
  funext fun a => Fin.ext (by match a with | ⟨0, _⟩ => rfl | ⟨1, _⟩ => rfl | ⟨2, _⟩ => rfl)
theorem idx9 (b : Fin 64) (n k : Fin 1024) : idx_main_v9 (ix3 b n k) = ix3 (0 : Fin 1) n k :=
  funext fun a => Fin.ext (by match a with | ⟨0, _⟩ => rfl | ⟨1, _⟩ => rfl | ⟨2, _⟩ => rfl)
theorem idx8 (n k : Fin 1024) : idx_main_v8 (ix3 (0 : Fin 1) n k) = ix2 n k :=
  funext fun a => Fin.ext (by match a with | ⟨0, _⟩ => rfl | ⟨1, _⟩ => rfl)
theorem lidx11 (b : Fin 64) (n : Fin 1024) (e : Fin 64) (d : Fin 64) : lidx_main_v11 (ix3 b n e) d = ix3 b n d :=
  funext fun a => Fin.ext (by match a with | ⟨0, _⟩ => rfl | ⟨1, _⟩ => rfl | ⟨2, _⟩ => rfl)
theorem ridx11 (b : Fin 64) (n : Fin 1024) (e : Fin 64) (d : Fin 64) : ridx_main_v11 (ix3 b n e) d = ix2 d e :=
  funext fun a => Fin.ext (by match a with | ⟨0, _⟩ => rfl | ⟨1, _⟩ => rfl)

/-- The inverse square root of a row sum, as the reference computes it (the sum starts from zero). -/
theorem dinv_apply (A : Cert.Gcn.AdjIdx → EReal) (b : Fin 64) (n : Fin 1024) :
    val_main_v1 (F := Ideal) A (ix2 b n) = Cert.Gcn.dinv A b n := by
  rw [val_main_v1_apply, val_main_v0_apply, val_main_cst_apply]
  simp only [idx0, Ideal.hostUnary_rsqrt_def, Ideal.ofBits_def, Ideal.ofBits_zero_f32, zero_add]
  rfl

/-- The degree-scaled features, as the reference computes them. -/
theorem feat_apply (A : Cert.Gcn.AdjIdx → EReal) (X : Cert.Gcn.AttIdx → EReal) (W : Cert.Gcn.WgtIdx → EReal)
    (b : Fin 64) (n : Fin 1024) (e : Fin 64) :
    val_main_v14 (F := Ideal) A X W (ix3 b n e) = Cert.Gcn.feat A X W b n e := by
  rw [val_main_v14_apply, val_main_v13_apply, idx13, val_main_v12_apply, idx12, dinv_apply, val_main_v11_apply]
  simp only [lidx11, ridx11, Ideal.mulf_def]
  rfl

/-- ENTRY (b, n, e) OF THE REFERENCE'S RESULT is the layer with the identity added to the adjacency before the product. -/
theorem result_apply (A : Cert.Gcn.AdjIdx → EReal) (X : Cert.Gcn.AttIdx → EReal) (W : Cert.Gcn.WgtIdx → EReal)
    (b : Fin 64) (n : Fin 1024) (e : Fin 64) :
    val_main_v18 (F := Ideal) A X W (ix3 b n e) = Cert.Gcn.selfLoopAt A X W eye b n e := by
  rw [val_main_v18_apply, val_main_v17_apply, idx17, val_main_v16_apply, idx16, dinv_apply, val_main_v15_apply]
  simp only [lidx15, ridx15, feat_apply, val_main_v10_apply, val_main_v9_apply, idx9, val_main_v8_apply, idx8,
    Ideal.mulf_def, Ideal.addf_def]
  rfl

end Cert.ReferenceIdeal.RefValue

end
-- ==== Proof.PreDecode.lean ====
/-
  What the precondition says of the argument arrays.

  The precondition is the conjunction of four tests, each an "all" over an array of one-bit answers: |x| < +∞ at every
  entry of the adjacency, of the features and of the weight, and (row sum of the adjacency) > 0 at every batch and node.
  On the extended reals |x| = max x (−x) is below +∞ exactly when x is a real number, and the row sum the test takes is
  the sum over the row's entries from a zero initial value. So the precondition gives: every entry of the three arrays is
  a real number, and every degree is positive, which is what keeps the inverse square root a real number.
-/
import proofs.«117016_j71098888618113_2_alg».proof.Pre_finite_inputs
import proofs.«117016_j71098888618113_2_alg».proof.Proof.Spec
import Idealize.ShloMosaic.Lib.ReduceAll
import Idealize.ShloMosaic.Lib.Affine
import Idealize.ShloMosaic.Lib.ValueIdx
import Idealize.ShloMosaic.PureOps.Ideal.Laws

noncomputable section

open scoped BigOperators

namespace Cert.Pre_finite_inputs.Decode

open Cert.Pre_finite_inputs Cert.Pre_finite_inputs.Facts Idealize.ShloMosaic Idealize.ShloMosaic.ValueIdx

variable [Facts]

/-- The scalar shape has one index. -/
instance : Subsingleton S_.Idx := ⟨fun a b => funext fun d => d.elim0⟩

/-- An extended real whose absolute value is below +∞ is a real number. -/
theorem real_of_abs_lt_inf (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => exact absurd h (by simp [Ideal.cmp])
  | top => exact absurd h (by simp [Ideal.cmp])
  | coe r => exact ⟨r, rfl⟩

/-- An extended real that tests above the zero word is positive. -/
theorem pos_of_gt_zero (x : EReal) (h : Ideal.cmp .ogt x (Ideal.ofBits .f32 0x00000000#32) = 1#1) : 0 < x := by
  rw [Ideal.ofBits_zero_f32] at h
  by_contra hn
  exact absurd h (by simp [Ideal.cmp, hn])

/-- The row sum the precondition tests is the degree. -/
theorem rowSum_apply (A : FVec Ideal S64x1024x1024 .f32) (b : Fin 64) (n : Fin 1024) :
    Host.reduceAdd (F := Ideal) A (constant (F := Ideal) S_ .f32 0x00000000#32) reducesTo_S64x1024x1024_S64x1024_d2 h_S_ (ix2 b n)
      = Cert.Gcn.deg A b n := by
  simp only [Host.reduceAdd, Ideal.hostReduceAdd_def]
  rw [Ideal.hostReduceAdd_single reducesTo_S64x1024x1024_S64x1024_d2 (by decide)]
  show Ideal.ofBits .f32 0x00000000#32 + _ = _
  rw [Ideal.ofBits_zero_f32, zero_add]
  unfold Cert.Gcn.deg
  exact Finset.sum_congr rfl fun k _ => congrArg A (funext fun a => Fin.ext (by
    match a with
    | ⟨0, _⟩ => rfl
    | ⟨1, _⟩ => rfl
    | ⟨2, _⟩ => rfl))

/-- THE PRECONDITION, READ: real entries everywhere and positive degrees. -/
theorem decode (A : FVec Ideal S64x1024x1024 .f32) (X : FVec Ideal S64x1024x64 .f32) (W : FVec Ideal S64x64 .f32)
    (h : fn (F := Ideal) A X W = fun _ => 1#1) :
    (∀ i, ∃ r : ℝ, A i = r) ∧ (∀ i, ∃ r : ℝ, X i = r) ∧ (∀ i, ∃ r : ℝ, W i = r) ∧ (∀ b n, 0 < Cert.Gcn.deg A b n) := by
  have h0 := congrFun h ix0
  dsimp only [fn, fn_part1] at h0
  obtain ⟨h123, h4⟩ := IntOp.andi_eq_one.mp h0
  obtain ⟨h12, h3⟩ := IntOp.andi_eq_one.mp h123
  obtain ⟨h1, h2⟩ := IntOp.andi_eq_one.mp h12
  refine ⟨fun i => ?_, fun i => ?_, fun i => ?_, fun b n => ?_⟩
  · exact real_of_abs_lt_inf (A i) (Host.reduce_andi_all _ _ _ _ ix0 h1 i)
  · exact real_of_abs_lt_inf (X i) (Host.reduce_andi_all _ _ _ _ ix0 h2 i)
  · exact real_of_abs_lt_inf (W i) (Host.reduce_andi_all _ _ _ _ ix0 h3 i)
  · have hb := Host.reduce_andi_all _ _ _ _ ix0 h4 (ix2 b n)
    rw [← rowSum_apply A b n]
    exact pos_of_gt_zero _ hb

end Cert.Pre_finite_inputs.Decode

end
-- ==== Proof.lean ====
/-
  A graph-convolution layer with symmetric degree normalisation, out = D^(-1/2) · (A + I) · D^(-1/2) · (X · W) per batch,
  with D the diagonal of the row sums of the raw adjacency A: the fused kernel against its plain reference, on the
  extended reals.

  Both programs take the row sums of A, their inverse square roots dinv, the projection X · W, and the scaled features
  feat = dinv · (X · W). The kernel then forms dinv · ((A · feat) + feat): the self-loop is added after the product. The
  reference adds the identity matrix to A and forms dinv · ((A + I) · feat). The two agree by distributivity, which on the
  extended reals needs the summands to be finite: under the precondition every entry is a real number and every row sum is
  positive, so dinv, and with it feat, is a real number, and the identity is the one in ℝ. (With a zero row sum dinv is
  +∞ and the two arrangements can differ; the precondition excludes that.)

  The kernel's side: each grid point handles one batch and writes back that batch of the layer; the blocks cover the
  result array. The reference's side: its operations read index by index give the self-loop arrangement. The narrowing
  of the matrix products' operands to bf16 is the identity on extended reals, and nothing was rewritten in the kernel's
  idealisation, so that conjunct is trivial.
-/
import proofs.«117016_j71098888618113_2_alg».proof.Defs
import proofs.«117016_j71098888618113_2_alg».proof.Proof.Gen.Kernel
import proofs.«117016_j71098888618113_2_alg».proof.Proof.Gen.Kernel.Skeleton
import proofs.«117016_j71098888618113_2_alg».proof.Proof.Gen.Kernel.Launch
import proofs.«117016_j71098888618113_2_alg».proof.Proof.Gen.Kernel.Points
import proofs.«117016_j71098888618113_2_alg».proof.Proof.Gen.Kernel.Frame
import proofs.«117016_j71098888618113_2_alg».proof.Proof.Gen.KernelIdeal
import proofs.«117016_j71098888618113_2_alg».proof.Proof.Gen.KernelIdeal.Skeleton
import proofs.«117016_j71098888618113_2_alg».proof.Proof.Gen.KernelIdeal.Launch
import proofs.«117016_j71098888618113_2_alg».proof.Proof.Gen.KernelIdeal.Points
import proofs.«117016_j71098888618113_2_alg».proof.Proof.Gen.KernelIdeal.Frame
import proofs.«117016_j71098888618113_2_alg».proof.Proof.Gen.ReferenceIdeal
import proofs.«117016_j71098888618113_2_alg».proof.Proof.Gen.Pre_finite_inputs
import proofs.«117016_j71098888618113_2_alg».proof.Proof.Gen.KernelIdeal.Value
import proofs.«117016_j71098888618113_2_alg».proof.Proof.Gen.ReferenceIdeal.Run
import proofs.«117016_j71098888618113_2_alg».proof.Proof.Gen.ReferenceIdeal.Read
import proofs.«117016_j71098888618113_2_alg».proof.Proof.KernelArray
import proofs.«117016_j71098888618113_2_alg».proof.Proof.RefValue
import proofs.«117016_j71098888618113_2_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs, faults nowhere and leaves its arguments unchanged. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealisation rewrote no operation of the kernel. -/
theorem preserves : Cert.preserves_Kernel_KernelIdeal := trivial

/-- On arguments that agree, are real everywhere and have positive row sums, both programs end with the layer of the
    arguments in their result: the kernel block by block, the reference by distributivity over the identity matrix. -/
theorem algebraic : Cert.algebraic_KernelIdeal_ReferenceIdeal := by
  intro m ρ m' ρ' hpre hagree
  refine ⟨fun c => Cert.KernelIdeal.Whole.result m c,
    fun c => m ((c.tc : Thread Cert.KernelIdeal.nD Cert.KernelIdeal.τ).loc Cert.KernelIdeal.main_arg2), ?_, ?_⟩
  · exact (θ_run Cert.KernelIdeal.defs _ _).mono
      (fun _ h c => ⟨(h c).1, (h c).2.2.2, (h c).2.1, (h c).2.2.1, (h c).2.2.2⟩) (Cert.KernelIdeal.Whole.run m ρ)
  · refine (θ_run Cert.ReferenceIdeal.defs _ _).mono
      (fun _ h c => ⟨(h c).1.trans ?_, (h c).2.1.trans (hagree c).2.2, (h c).2.2⟩)
      (Cert.ReferenceIdeal.Value.run (F := Ideal) m' ρ')
    obtain ⟨hA, hX, hW, hpos⟩ := Cert.Pre_finite_inputs.Decode.decode _ _ _ (hpre c)
    rw [Cert.ReferenceIdeal.Read.val_main_v18_eq, (hagree c).1, (hagree c).2.1, (hagree c).2.2]
    funext i
    obtain ⟨b, n, e, rfl⟩ : ∃ (b : Fin 64) (n : Fin 1024) (e : Fin 64), i = ix3 b n e := ⟨i 0, i 1, i 2, eq_ix3 i⟩
    rw [Cert.ReferenceIdeal.RefValue.result_apply,
      Cert.Gcn.selfLoopAt_eq_layerAt hA hX hW hpos _ Cert.ReferenceIdeal.RefValue.eye_eq]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
